-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x512 : Shape := ⟨2, ![512, 512]⟩
abbrev S512 : Shape := ⟨1, ![512]⟩
abbrev S1024x512 : Shape := ⟨2, ![1024, 512]⟩
abbrev S512x10 : Shape := ⟨2, ![512, 10]⟩
abbrev S10 : Shape := ⟨1, ![10]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S512x10 : S_.BroadcastsInDim S512x10 (![] : Fin 0 → Fin S512x10.rank)
  reducesTo_S512x10_S_d0_1 : S512x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg11 : FVec F S512x10 .f32) (main_arg12 : FVec F S10 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x10 .f32 := Host.absf main_arg11
  let main_cst_20 : FVec F S_ .f32 := constant S_ .f32 0x7F800000#32
  let main_v55 : FVec F S512x10 .f32 := broadcastInDim S512x10 ![] bcast_S_S512x10 main_cst_20
  let main_v56 : IVec S512x10 1 := cmpf .olt main_v54 main_v55
  let main_c_21 : IVec S_ 1 := constantI S_ 1 1#1
  let main_v57 : IVec S_ 1 := (fun x v => Host.reduce IntOp.andi x v reducesTo_S512x10_S_d0_1 h_S_) main_v56 main_c_21
  let main_v58 : IVec S_ 1 := andi main_v53 main_v57
  let main_v59 : FVec F S10 .f32 := Host.absf main_arg12
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg7 : FVec F S512x512 .f32) (main_arg8 : FVec F S512 .f32) (main_arg9 : FVec F S1024x512 .f32) (main_arg10 : FVec F S512 .f32) (main_arg11 : FVec F S512x10 .f32) (main_arg12 : FVec F S10 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1024x512 .f32 := Host.absf main_arg9
  let main_cst_16 : FVec F S_ .f32 := constant S_ .f32 0x7F800000#32
  let main_v45 : FVec F S1024x512 .f32 := broadcastInDim S1024x512 ![] bcast_S_S1024x512 main_cst_16
  let main_v46 : IVec S1024x512 1 := cmpf .olt main_v44 main_v45
  let main_c_17 : IVec S_ 1 := constantI S_ 1 1#1
  let main_v47 : IVec S_ 1 := (fun x v => Host.reduce IntOp.andi x v reducesTo_S1024x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S1024x512 .f32) (main_arg10 : FVec F S512 .f32) (main_arg11 : FVec F S512x10 .f32) (main_arg12 : FVec F S10 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S65536x512 .f32) (main_arg1 : FVec F S512x512 .f32) (main_arg2 : FVec F S512 .f32) (main_arg3 : FVec F S512 .f32) (main_arg4 : FVec F S512 .f32) (main_arg5 : FVec F S512x512 .f32) (main_arg6 : FVec F S512 .f32) (main_arg7 : FVec F S512x512 .f32) (main_arg8 : FVec F S512 .f32) (main_arg9 : FVec F S1024x512 .f32) (main_arg10 : FVec F S512 .f32) (main_arg11 : FVec F S512x10 .f32) (main_arg12 : FVec F S10 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_v13 main_v16
-- ==== Kernel.lean ====
abbrev S65536x512 : Shape := ⟨2, ![65536, 512]⟩
abbrev S512x512 : Shape := ⟨2, ![512, 512]⟩
abbrev S512 : Shape := ⟨1, ![512]⟩
abbrev S1024x512 : Shape := ⟨2, ![1024, 512]⟩
abbrev S512x10 : Shape := ⟨2, ![512, 10]⟩
abbrev S10 : Shape := ⟨1, ![10]⟩
abbrev S1x512 : Shape := ⟨2, ![1, 512]⟩
abbrev S1x10 : Shape := ⟨2, ![1, 10]⟩
abbrev S65536x10 : Shape := ⟨2, ![65536, 10]⟩
abbrev S1024x10 : Shape := ⟨2, ![1024, 10]⟩
abbrev S1024 : Shape := ⟨1, ![1024]⟩
abbrev S1024x1 : Shape := ⟨2, ![1024, 1]⟩

abbrev nBuf : Space → Nat
  | .hbm => 29
  | .vmem => 17
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S1024x512, .f32⟩
  | .hbm, ⟨10, _⟩ => ⟨S512, .f32⟩
  | .hbm, ⟨11, _⟩ => ⟨S512x10, .f32⟩
  | .hbm, ⟨12, _⟩ => ⟨S10, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x10, .f32⟩
  | .hbm, ⟨20, _⟩ => ⟨S512x512, .bf16⟩
  | .hbm, ⟨21, _⟩ => ⟨S512x512, .bf16⟩
  | .hbm, ⟨22, _⟩ => ⟨S512x512, .bf16⟩
  | .hbm, ⟨23, _⟩ => ⟨S512x512, .f32⟩
  | .hbm, ⟨24, _⟩ => ⟨S512x512, .bf16⟩
  | .hbm, ⟨25, _⟩ => ⟨S512x512, .f32⟩
  | .hbm, ⟨26, _⟩ => ⟨S512x512, .bf16⟩
  | .hbm, ⟨27, _⟩ => ⟨S512x10, .bf16⟩
  | .hbm, ⟨28, _⟩ => ⟨S65536x10, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S1x512, .f32⟩
  | .local _ .vmem, ⟨13, _⟩ => ⟨S512x10, .bf16⟩
  | .local _ .vmem, ⟨14, _⟩ => ⟨S1x10, .f32⟩
  | .local _ .vmem, ⟨15, _⟩ => ⟨S1024x10, .f32⟩
  | .local _ .vmem, ⟨16, _⟩ => ⟨S1024x10, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x10 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x10 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x10 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S512_S1x512 : S512.ShapeCasts S1x512
  shapeCasts_S10_S1x10 : S10.ShapeCasts S1x10
  bitsLt_bf16_f32 : FTy.bits .bf16 < FTy.bits .f32
  slices_S1024x512_S512x512_0_0 : S1024x512.Slices ![0, 0] S512x512
  slices_S1024x512_S512x512_512_0 : S1024x512.Slices ![512, 0] S512x512
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x10_S512x10_0_0 : ∀ a, (![0, 0] : Fin 2 → Nat) a + S512x10.size a ≤ S512x10.size a
  h_S512x10 : 0 < S512x10.numel
  shapeCasts_S512x10_S512x10 : S512x10.ShapeCasts S512x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  reduces_S1024x10_S1024 : S1024x10.Reduces [1] S1024
  shapeCasts_S1024_S1024x1 : S1024.ShapeCasts S1024x1
  broadcasts_S1024x1_S1024x10 : S1024x1.Broadcasts S1024x10
  inb_S1024x10_S1024x10_0_0 : ∀ a, (![0, 0] : Fin 2 → Nat) a + S1024x10.size a ≤ S1024x10.size a
  h_S1024x10 : 0 < S1024x10.numel
  dot_S1024x512_S512x512_S1024x512_1_0_0_1_n_n_wf : DotDims.WF S1024x512 S512x512 S1024x512 [1] [0] [0] [1] [] []
  dot_S1024x512_S512x10_S1024x10_1_0_0_1_n_n_wf : DotDims.WF S1024x512 S512x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x10.size a ≤ S512x10.size a
  hwx0_12 : ∀ i : grid0.Coords, EltTy.bits .bf16 = 32 ∨ (Rect.block (s := S512x10) S512x10.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x10.size a ≤ S1x10.size a
  hwx0_13 : ∀ i : grid0.Coords, EltTy.bits .f32 = 32 ∨ (Rect.block (s := S1x10) S1x10.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x10.size a ≤ S65536x10.size a
  hwx0_14 : ∀ i : grid0.Coords, EltTy.bits .f32 = 32 ∨ (Rect.block (s := S65536x10) S1024x10.size (cc0_transform_14 i) (hinb0_14 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x10_S1024x10_1_0_0_1_n_n : DotDims S1024x512 S512x10 S1024x10 where
  lhsContracting := [1]
  rhsContracting := [0]
  lhsNonContracting := [0]
  rhsNonContracting := [1]
  lhsBatch := []
  rhsBatch := []
  wf := dot_S1024x512_S512x10_S1024x10_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S512x10.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S1x10.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v15) S1024x10.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x512 : Shape := ⟨2, ![512, 512]⟩
abbrev S512 : Shape := ⟨1, ![512]⟩
abbrev S1024x512 : Shape := ⟨2, ![1024, 512]⟩
abbrev S512x10 : Shape := ⟨2, ![512, 10]⟩
abbrev S10 : Shape := ⟨1, ![10]⟩
abbrev S1x512 : Shape := ⟨2, ![1, 512]⟩
abbrev S_ : Shape := ⟨0, ![]⟩
abbrev S65536x1024 : Shape := ⟨2, ![65536, 1024]⟩
abbrev S65536x10 : Shape := ⟨2, ![65536, 10]⟩
abbrev S1x10 : Shape := ⟨2, ![1, 10]⟩
abbrev S65536 : Shape := ⟨1, ![65536]⟩
abbrev S65536x1 : Shape := ⟨2, ![65536, 1]⟩

abbrev nBuf : Space → Nat
  | .hbm => 86
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S1024x512, .f32⟩
  | .hbm, ⟨10, _⟩ => ⟨S512, .f32⟩
  | .hbm, ⟨11, _⟩ => ⟨S512x10, .f32⟩
  | .hbm, ⟨12, _⟩ => ⟨S10, .f32⟩
  | .hbm, ⟨13, _⟩ => ⟨S65536x512, .f32⟩
  | .hbm, ⟨14, _⟩ => ⟨S1x512, .f32⟩
  | .hbm, ⟨15, _⟩ => ⟨S65536x512, .f32⟩
  | .hbm, ⟨16, _⟩ => ⟨S65536x512, .f32⟩
  | .hbm, ⟨17, _⟩ => ⟨S1x512, .f32⟩
  | .hbm, ⟨18, _⟩ => ⟨S65536x512, .f32⟩
  | .hbm, ⟨19, _⟩ => ⟨S65536x512, .f32⟩
  | .hbm, ⟨20, _⟩ => ⟨S65536x512, .f32⟩
  | .hbm, ⟨21, _⟩ => ⟨S65536x512, .f32⟩
  | .hbm, ⟨22, _⟩ => ⟨S512, .f32⟩
  | .hbm, ⟨23, _⟩ => ⟨S1x512, .f32⟩
  | .hbm, ⟨24, _⟩ => ⟨S65536x512, .f32⟩
  | .hbm, ⟨25, _⟩ => ⟨S65536x512, .f32⟩
  | .hbm, ⟨26, _⟩ => ⟨S65536x512, .f32⟩
  | .hbm, ⟨27, _⟩ => ⟨S65536x512, .f32⟩
  | .hbm, ⟨28, _⟩ => ⟨S1x512, .f32⟩
  | .hbm, ⟨29, _⟩ => ⟨S65536x512, .f32⟩
  | .hbm, ⟨30, _⟩ => ⟨S65536x512, .f32⟩
  | .hbm, ⟨31, _⟩ => ⟨S65536x512, .f32⟩
  | .hbm, ⟨32, _⟩ => ⟨S65536x512, .f32⟩
  | .hbm, ⟨33, _⟩ => ⟨S_, .f32⟩
  | .hbm, ⟨34, _⟩ => ⟨S65536x512, .f32⟩
  | .hbm, ⟨35, _⟩ => ⟨S65536x512, .f32⟩
  | .hbm, ⟨36, _⟩ => ⟨S_, .f32⟩
  | .hbm, ⟨37, _⟩ => ⟨S65536x512, .f32⟩
  | .hbm, ⟨38, _⟩ => ⟨S65536x512, .f32⟩
  | .hbm, ⟨39, _⟩ => ⟨S65536x512, .f32⟩
  | .hbm, ⟨40, _⟩ => ⟨S1x512, .f32⟩
  | .hbm, ⟨41, _⟩ => ⟨S65536x512, .f32⟩
  | .hbm, ⟨42, _⟩ => ⟨S65536x512, .f32⟩
  | .hbm, ⟨43, _⟩ => ⟨S65536x512, .f32⟩
  | .hbm, ⟨44, _⟩ => ⟨S65536x512, .f32⟩
  | .hbm, ⟨45, _⟩ => ⟨S_, .f32⟩
  | .hbm, ⟨46, _⟩ => ⟨S65536x512, .f32⟩
  | .hbm, ⟨47, _⟩ => ⟨S65536x512, .f32⟩
  | .hbm, ⟨48, _⟩ => ⟨S_, .f32⟩
  | .hbm, ⟨49, _⟩ => ⟨S65536x512, .f32⟩
  | .hbm, ⟨50, _⟩ => ⟨S65536x512, .f32⟩
  | .hbm, ⟨51, _⟩ => ⟨S65536x1024, .f32⟩
  | .hbm, ⟨52, _⟩ => ⟨S65536x512, .f32⟩
  | .hbm, ⟨53, _⟩ => ⟨S1x512, .f32⟩
  | .hbm, ⟨54, _⟩ => ⟨S65536x512, .f32⟩
  | .hbm, ⟨55, _⟩ => ⟨S65536x512, .f32⟩
  | .hbm, ⟨56, _⟩ => ⟨S65536x512, .f32⟩
  | .hbm, ⟨57, _⟩ => ⟨S65536x512, .f32⟩
  | .hbm, ⟨58, _⟩ => ⟨S_, .f32⟩
  | .hbm, ⟨59, _⟩ => ⟨S65536x512, .f32⟩
  | .hbm, ⟨60, _⟩ => ⟨S65536x512, .f32⟩
  | .hbm, ⟨61, _⟩ => ⟨S_, .f32⟩
  | .hbm, ⟨62, _⟩ => ⟨S65536x512, .f32⟩
  | .hbm, ⟨63, _⟩ => ⟨S65536x512, .f32⟩
  | .hbm, ⟨64, _⟩ => ⟨S_, .f32⟩
  | .hbm, ⟨65, _⟩ => ⟨S65536x512, .f32⟩
  | .hbm, ⟨66, _⟩ => ⟨S65536x512, .f32⟩
  | .hbm, ⟨67, _⟩ => ⟨S65536x10, .f32⟩
  | .hbm, ⟨68, _⟩ => ⟨S1x10, .f32⟩
  | .hbm, ⟨69, _⟩ => ⟨S65536x10, .f32⟩
  | .hbm, ⟨70, _⟩ => ⟨S65536x10, .f32⟩
  | .hbm, ⟨71, _⟩ => ⟨S_, .f32⟩
  | .hbm, ⟨72, _⟩ => ⟨S65536, .f32⟩
  | .hbm, ⟨73, _⟩ => ⟨S_, .f32⟩
  | .hbm, ⟨74, _⟩ => ⟨S65536, .f32⟩
  | .hbm, ⟨75, _⟩ => ⟨S65536, .f32⟩
  | .hbm, ⟨76, _⟩ => ⟨S65536x1, .f32⟩
  | .hbm, ⟨77, _⟩ => ⟨S65536x10, .f32⟩
  | .hbm, ⟨78, _⟩ => ⟨S65536x10, .f32⟩
  | .hbm, ⟨79, _⟩ => ⟨S65536x10, .f32⟩
  | .hbm, ⟨80, _⟩ => ⟨S_, .f32⟩
  | .hbm, ⟨81, _⟩ => ⟨S65536, .f32⟩
  | .hbm, ⟨82, _⟩ => ⟨S65536x1, .f32⟩
  | .hbm, ⟨83, _⟩ => ⟨S65536x1, .f32⟩
  | .hbm, ⟨84, _⟩ => ⟨S65536x10, .f32⟩
  | .hbm, ⟨85, _⟩ => ⟨S65536x10, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_cst_0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_3 : Ref sig .tc := ⟨.hbm, 58, rfl⟩
abbrev main_v41 : Ref sig .tc := ⟨.hbm, 59, rfl⟩
abbrev main_v42 : Ref sig .tc := ⟨.hbm, 60, rfl⟩
abbrev main_cst_4 : Ref sig .tc := ⟨.hbm, 61, rfl⟩
abbrev main_v43 : Ref sig .tc := ⟨.hbm, 62, rfl⟩
abbrev main_v44 : Ref sig .tc := ⟨.hbm, 63, rfl⟩
abbrev main_call0_cst : Ref sig .tc := ⟨.hbm, 64, rfl⟩
abbrev main_call0_v0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_cst : Ref sig .tc := ⟨.hbm, 71, rfl⟩
abbrev main_call1_v0 : Ref sig .tc := ⟨.hbm, 72, rfl⟩
abbrev main_call1_cst_0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_cst_1 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_v50 : Ref sig .tc := ⟨.hbm, 85, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  concatenates_S65536x512_S65536x512_S65536x1024_d1 : Shape.Concatenates [S65536x512, S65536x512] S65536x1024 1
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  reducesTo_S65536x10_S65536_d1 : S65536x10.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x10_0_1 : S65536x1.BroadcastsInDim S65536x10 (![0, 1] : Fin 2 → Fin S65536x10.rank)
  dot_S65536x512_S512x512_S65536x512_1_0_0_1_n_n_wf : DotDims.WF S65536x512 S512x512 S65536x512 [1] [0] [0] [1] [] []
  dot_S65536x1024_S1024x512_S65536x512_1_0_0_1_n_n_wf : DotDims.WF S65536x1024 S1024x512 S65536x512 [1] [0] [0] [1] [] []
  dot_S65536x512_S512x10_S65536x10_1_0_0_1_n_n_wf : DotDims.WF S65536x512 S512x10 S65536x10 [1] [0] [0] [1] [] []

variable [Facts₀]

def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x1024_S1024x512_S65536x512_1_0_0_1_n_n : DotDims S65536x1024 S1024x512 S65536x512 where
  lhsContracting := [1]
  rhsContracting := [0]
  lhsNonContracting := [0]
  rhsNonContracting := [1]
  lhsBatch := []
  rhsBatch := []
  wf := dot_S65536x1024_S1024x512_S65536x512_1_0_0_1_n_n_wf
def dot_S65536x512_S512x10_S65536x10_1_0_0_1_n_n : DotDims S65536x512 S512x10 S65536x10 where
  lhsContracting := [1]
  rhsContracting := [0]
  lhsNonContracting := [0]
  rhsNonContracting := [1]
  lhsBatch := []
  rhsBatch := []
  wf := dot_S65536x512_S512x10_S65536x10_1_0_0_1_n_n_wf

class Facts : Prop extends Facts₀ where

variable [Facts]
-- ==== Proof.Spec.lean ====
/-
  The network both programs compute, one batch row at a time, over the extended reals.

  A row `x` of 512 features goes two ways. The membership path: a dense layer `x · Wz + bz`, then per column the
  Gaussian membership `exp (-(z - mu)² / sg²)`. The sigmoid path: two dense layers, each followed by the logistic
  function. The two 512-wide results are fused by a dense layer over their concatenation — its weight matrix has 1024
  rows, the first 512 meeting the membership values and the last 512 the sigmoid path's — followed by the logistic
  function and a clamp below at zero. A last dense layer gives 10 logits, and the row's result is their log-softmax:
  the logits less their maximum, less the logarithm of the sum of the exponentials of those differences.

  Everything here is a function of coordinates (`Fin 512`, `Fin 10`), with no array shape in sight; `net` reads the
  parameters and the batch row off the argument arrays.
-/
import Idealize.ShloMosaic.PureOps.Ideal.Laws
import Idealize.ShloMosaic.Lib.ValueIdx

noncomputable section

open scoped BigOperators

namespace Cert.FuzzyNet

open Idealize.ShloMosaic Idealize.ShloMosaic.ValueIdx

/-- The network's parameters, each as a function of its coordinates. `wa` and `wb` are the two halves of the fusion
    layer's weights: the rows that meet the membership values, and the rows that meet the sigmoid path's. -/
structure Weights where
  wz : Fin 512 → Fin 512 → EReal
  bz : Fin 512 → EReal
  mu : Fin 512 → EReal
  sg : Fin 512 → EReal
  w1 : Fin 512 → Fin 512 → EReal
  b1 : Fin 512 → EReal
  w2 : Fin 512 → Fin 512 → EReal
  b2 : Fin 512 → EReal
  wa : Fin 512 → Fin 512 → EReal
  wb : Fin 512 → Fin 512 → EReal
  bf : Fin 512 → EReal
  wo : Fin 512 → Fin 10 → EReal
  bo : Fin 10 → EReal

/-- A row times a matrix, at column `j`. -/
def lin {N : Nat} (x : Fin 512 → EReal) (w : Fin 512 → Fin N → EReal) (j : Fin N) : EReal :=
  ∑ k : Fin 512, x k * w k j

/-- The Gaussian membership of `z` for the centre `mu` and the width `sg`. -/
def membership (z mu sg : EReal) : EReal :=
  Ideal.exp (Ideal.div (-((z - mu) * (z - mu))) (sg * sg))

/-- The membership path. -/
def fuzz (W : Weights) (x : Fin 512 → EReal) (j : Fin 512) : EReal :=
  membership (lin x W.wz j + W.bz j) (W.mu j) (W.sg j)

/-- The sigmoid path's first layer. -/
def hid1 (W : Weights) (x : Fin 512 → EReal) (j : Fin 512) : EReal :=
  Ideal.logistic (lin x W.w1 j + W.b1 j)

/-- The sigmoid path's second layer. -/
def hid2 (W : Weights) (x : Fin 512 → EReal) (j : Fin 512) : EReal :=
  Ideal.logistic (lin (hid1 W x) W.w2 j + W.b2 j)

/-- The fusion layer: the two paths against the two halves of its weights, added, then the bias, the logistic function
    and the clamp at zero. -/
def fused (W : Weights) (x : Fin 512 → EReal) (j : Fin 512) : EReal :=
  max (Ideal.logistic ((lin (fuzz W x) W.wa j + lin (hid2 W x) W.wb j) + W.bf j)) 0

/-- The ten logits. -/
def logit (W : Weights) (x : Fin 512 → EReal) (n : Fin 10) : EReal :=
  lin (fused W x) W.wo n + W.bo n

/-- The value both programs start a row's maximum from (the word of `-∞`; it is never evaluated). -/
def floor : EReal := Ideal.ofBits .f32 0xFF800000#32

/-- The maximum of ten numbers, from `floor`. -/
def rowMax (z : Fin 10 → EReal) : EReal := (Finset.univ : Finset (Fin 10)).fold max floor z

/-- The log-softmax of ten numbers. -/
def logSoftmax (z : Fin 10 → EReal) (n : Fin 10) : EReal :=
  (z n - rowMax z) - Ideal.log (∑ k : Fin 10, Ideal.exp (z k - rowMax z))

/-- The network on one row. -/
def rowOut (W : Weights) (x : Fin 512 → EReal) (n : Fin 10) : EReal := logSoftmax (logit W x) n

/-- The maximum is at least the value it starts from, so taking the maximum with that value again changes nothing. -/
theorem max_floor_rowMax (z : Fin 10 → EReal) : max floor (rowMax z) = rowMax z :=
  max_eq_right (Finset.le_fold_max floor |>.mpr (Or.inl le_rfl))

/-! ## The parameters and the rows, read off the argument arrays -/

/-- Row `k` of the first half of a 1024-row matrix. -/
abbrev lo (k : Fin 512) : Fin 1024 := ⟨k.val, by omega⟩
/-- Row `k` of its second half. -/
abbrev hi (k : Fin 512) : Fin 1024 := ⟨512 + k.val, by omega⟩

/-- A sum over 1024 places is the sum over the first 512 plus the sum over the last 512. -/
theorem sum_halves {M : Type*} [AddCommMonoid M] (f : Fin 1024 → M) :
    ∑ k : Fin 1024, f k = (∑ k : Fin 512, f (lo k)) + ∑ k : Fin 512, f (hi k) :=
  Fin.sum_univ_add (a := 512) (b := 512) f

/-- The parameters as the argument arrays hold them: the fusion weights' two halves are rows `0 … 511` and
    `512 … 1023` of the one `[1024, 512]` array. -/
def argWeights (Wz : (⟨2, ![512, 512]⟩ : Shape).Idx → EReal) (bz mu sg : (⟨1, ![512]⟩ : Shape).Idx → EReal)
    (W1 : (⟨2, ![512, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (Wf : (⟨2, ![1024, 512]⟩ : Shape).Idx → EReal) (bf : (⟨1, ![512]⟩ : Shape).Idx → EReal)
    (Wo : (⟨2, ![512, 10]⟩ : Shape).Idx → EReal) (bo : (⟨1, ![10]⟩ : Shape).Idx → EReal) : Weights where
  wz k j := Wz (ix2 k j)
  bz j := bz (ix1 j)
  mu j := mu (ix1 j)
  sg j := sg (ix1 j)
  w1 k j := W1 (ix2 k j)
  b1 j := b1 (ix1 j)
  w2 k j := W2 (ix2 k j)
  b2 j := b2 (ix1 j)
  wa k j := Wf (ix2 (lo k) j)
  wb k j := Wf (ix2 (hi k) j)
  bf j := bf (ix1 j)
  wo k n := Wo (ix2 k n)
  bo n := bo (ix1 n)

/-- THE RESULT ARRAY as one function of the thirteen argument arrays: entry `(r, n)` is the network on row `r` of
    the input, at class `n`. -/
def net (X : (⟨2, ![65536, 512]⟩ : Shape).Idx → EReal)
    (Wz : (⟨2, ![512, 512]⟩ : Shape).Idx → EReal) (bz mu sg : (⟨1, ![512]⟩ : Shape).Idx → EReal)
    (W1 : (⟨2, ![512, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (Wf : (⟨2, ![1024, 512]⟩ : Shape).Idx → EReal) (bf : (⟨1, ![512]⟩ : Shape).Idx → EReal)
    (Wo : (⟨2, ![512, 10]⟩ : Shape).Idx → EReal) (bo : (⟨1, ![10]⟩ : Shape).Idx → EReal) :
    (⟨2, ![65536, 10]⟩ : Shape).Idx → EReal :=
  fun i => rowOut (argWeights Wz bz mu sg W1 b1 W2 b2 Wf bf Wo bo) (fun k => X (ix2 (i 0) k)) (i 1)

theorem net_apply (X : (⟨2, ![65536, 512]⟩ : Shape).Idx → EReal)
    (Wz : (⟨2, ![512, 512]⟩ : Shape).Idx → EReal) (bz mu sg : (⟨1, ![512]⟩ : Shape).Idx → EReal)
    (W1 : (⟨2, ![512, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (Wf : (⟨2, ![1024, 512]⟩ : Shape).Idx → EReal) (bf : (⟨1, ![512]⟩ : Shape).Idx → EReal)
    (Wo : (⟨2, ![512, 10]⟩ : Shape).Idx → EReal) (bo : (⟨1, ![10]⟩ : Shape).Idx → EReal)
    (r : Fin 65536) (n : Fin 10) :
    net X Wz bz mu sg W1 b1 W2 b2 Wf bf Wo bo (ix2 r n)
      = rowOut (argWeights Wz bz mu sg W1 b1 W2 b2 Wf bf Wo bo) (fun k => X (ix2 r k)) n := rfl

end Cert.FuzzyNet

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.LibKeepdims.lean ====
/-
  Column ("keepdims") layouts read at an index given by coordinates.

  A row statistic of a matrix (a row sum, a row maximum) is a vector `[a]`; to combine it with the matrix again it is
  first viewed as the one-column matrix `[a, 1]` and then repeated along the columns to `[a, b]`. A statistic of the
  whole matrix is a one-element vector `[1]`, viewed as `[1, 1]` and repeated down the rows to the column `[a, 1]`.
  And a matrix that is one block of a rank-4 array is the block `[1, 1, a, b]` with its two unit axes dropped, or
  the matrix with two unit axes put in front. Each lemma here says which ONE element of the operand such a view reads
  at an index written by coordinates: a shape cast keeps the row-major position, and a broadcast reads coordinate `0`
  on an axis of size one. They complement the leading-unit-axis casts and the row broadcast `[1, b] → [a, b]` of the
  library's layout lemmas; all are general in the sizes.
-/
import Idealize.ShloMosaic.Lib.ValueLayout

namespace Cert.Keepdims

open Idealize.ShloMosaic Idealize.ShloMosaic.ValueIdx

variable {α : Type}

/-! ## A vector as a one-column matrix, and the column repeated -/

/-- An `[a]` vector cast to the column `[a, 1]` reads, at `(i, u)`, the vector at `i`: the position `i · 1 + u` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One number as a `[1, 1]` matrix, repeated down a column -/

/-- A one-element vector `[1]` cast to `[1, 1]` reads its one element everywhere. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) := by
  obtain rfl : u = 0 := Subsingleton.elim _ _
  exact shapeCast_a_a1_apply x h 0 v

/-- A `[1, 1]` matrix broadcast to the column `[a, 1]` reads its one element in every row. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  obtain rfl : u = 0 := Subsingleton.elim _ _
  exact broadcastTo_1b_ab_apply v h p 0

/-! ## Two leading unit axes dropped from, or added to, a matrix -/

/-- A `[1, 1, a, b]` block cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- A matrix `[a, b]` cast to the block `[1, 1, a, b]` reads, at `(u, v, i, j)`, the matrix at `(i, j)`, whatever the
    two unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.add_zero])

end Cert.Keepdims
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.KernelRow.lean ====
/-
  The kernel's body on one block of 1024 rows, read at an entry over the extended reals.

  The body loads its fourteen input blocks whole, computes, and stores one `[1024, 10]` block. Its arithmetic is one
  term per stored value; here each piece of that term is read at an entry `(p, j)`: the matrix products into a zero
  accumulator as sums over the contracted coordinate, a bias row broadcast down the rows as the row's entry, a change of
  float format as the identity, the row maximum and the row sum over the ten classes as a fold and a sum, the column of
  row statistics broadcast across the classes as the row's statistic. Put together, entry `(p, n)` of the stored block
  is the network of the specification on row `p` of the input block, at class `n`, with the parameters read off the
  parameter blocks (`body_apply`). The membership path writes its negation as `0 - d²`, which is `-d²` on every
  extended real.
-/
import proofs.«150175_j74217034875579_1_alg».proof.Proof.Gen.KernelIdeal.Skeleton
import proofs.«150175_j74217034875579_1_alg».proof.Proof.Spec
import proofs.«150175_j74217034875579_1_alg».proof.Proof.LibMatProd
import proofs.«150175_j74217034875579_1_alg».proof.Proof.LibKeepdims
import proofs.«150175_j74217034875579_1_alg».proof.Proof.LibBroadcastTo
import Idealize.ShloMosaic.Lib.Pipeline.Value
import Idealize.ShloMosaic.Lib.ValueIdx
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.FuzzyNet

/-! ## The body's operations that are not pointwise, read at an entry -/

/-- A `[1024, 512] × [512, 512]` product into a zero accumulator, at `(p, j)`. -/
theorem matmulA_apply (l : FVec Ideal S1024x512 .bf16) (r : FVec Ideal S512x512 .bf16) (p : Fin 1024) (j : Fin 512) :
    matmul dot_S1024x512_S512x512_S1024x512_1_0_0_1_n_n none l r (constant S1024x512 .f32 0x00000000#32) (ix2 p j)
      = ∑ k : Fin 512, l (ix2 p k) * r (ix2 k j) :=
  Cert.MatProd.matmul_plain_zero_apply none l r p j

/-- A `[1024, 512] × [512, 10]` product into a zero accumulator, at `(p, n)`. -/
theorem matmulB_apply (l : FVec Ideal S1024x512 .bf16) (r : FVec Ideal S512x10 .bf16) (p : Fin 1024) (n : Fin 10) :
    matmul dot_S1024x512_S512x10_S1024x10_1_0_0_1_n_n none l r (constant S1024x10 .f32 0x00000000#32) (ix2 p n)
      = ∑ k : Fin 512, l (ix2 p k) * r (ix2 k n) :=
  Cert.MatProd.matmul_plain_zero_apply none l r p n

/-- Row `p` with the class coordinate `k` put back is `(p, k)`. -/
theorem lift_row (p : Fin 1024) (k : Fin (S1024x10.size 1)) :
    reduces_S1024x10_S1024.lift (ix1 p) k = ix2 p (⟨k.val, k.isLt⟩ : Fin 10) := by
  funext c; apply Fin.ext
  fin_cases c <;> rfl

/-- A row's maximum over the ten classes, from the word of `-∞`. -/
theorem rowMax_apply (z : FVec Ideal S1024x10 .f32) (hφ : FTy.f32 = FTy.f32 ∨ FTy.f32 = FTy.bf16) (hacc : (0xFF800000#32 : BitVec 32) = 0xFF800000#32)
    (p : Fin 1024) :
    multiReduction .maximumf [1] S1024 z 0xFF800000#32 reduces_S1024x10_S1024 hφ hacc (ix1 p) = rowMax fun k => z (ix2 p k) := by
  refine (Ideal.multiReduction_maximumf_single z 0xFF800000#32 reduces_S1024x10_S1024 hφ hacc (ix1 p)).trans ?_
  have hf : (z ∘ reduces_S1024x10_S1024.lift (ix1 p)) = fun k : Fin 10 => z (ix2 p k) := funext fun k => congrArg z (lift_row p k)
  exact congrArg (fun f => Finset.fold max (Ideal.ofBits .f32 0xFF800000#32) f (Finset.univ : Finset (Fin 10))) hf

/-- A row's sum over the ten classes. -/
theorem rowSum_apply (z : FVec Ideal S1024x10 .f32) (hφ : FTy.f32 = FTy.f32 ∨ FTy.f32 = FTy.bf16) (hacc : (0x00000000#32 : BitVec 32) = 0x00000000#32)
    (p : Fin 1024) :
    multiReduction .add [1] S1024 z 0x00000000#32 reduces_S1024x10_S1024 hφ hacc (ix1 p) = ∑ k : Fin 10, z (ix2 p k) := by
  refine (Ideal.multiReduction_add_single z 0x00000000#32 reduces_S1024x10_S1024 hφ hacc (ix1 p)).trans ?_
  exact Finset.sum_congr rfl fun k _ => congrArg z (lift_row p k)

/-! ## Pointwise operations at an entry -/

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl
theorem logistic_apply {s : Shape} {φ : FTy} (a : FVec Ideal s φ) (i : s.Idx) : logistic a i = Ideal.logistic (a i) := rfl
/-- The scalar zero the body splats is the extended real `0`. -/
theorem zero_word : Scalar.ofBits (F := Ideal) .f32 0x00000000#32 = 0 := Ideal.ofBits_zero_f32

/-! ## The body's three intermediate values and its stored value, at an entry -/

/-- The membership path of a block of rows, at `(p, j)`: the body negates the square as `0 - d²`. -/
theorem pay3_apply (x0 : Vec Ideal S1024x512 .f32) (x1 : Vec Ideal S512x512 .bf16) (x2 x3 x4 : Vec Ideal S1x512 .f32)
    (p : Fin 1024) (j : Fin 512) :
    k0_pay3 x0 x1 x2 x3 x4 (ix2 p j)
      = membership ((∑ k : Fin 512, x0 (ix2 p k) * x1 (ix2 k j)) + x2 (ix2 0 j)) (x3 (ix2 0 j)) (x4 (ix2 0 j)) := by
  unfold k0_pay3 k0_pay2 membership
  simp only [truncf_apply, exp_apply, divf_apply, subf_apply, mulf_apply, addf_apply, broadcast_apply, shapeCast_self,
    Cert.BroadcastTo.row_apply, matmulA_apply, zero_word, zero_sub]

/-- The sigmoid path's second product of a block of rows, before its bias, at `(p, j)`. -/
theorem pay4_apply (x0 : Vec Ideal S1024x512 .f32) (x5 : Vec Ideal S512x512 .bf16) (x6 : Vec Ideal S1x512 .f32)
    (x7 : Vec Ideal S512x512 .bf16) (p : Fin 1024) (j : Fin 512) :
    k0_pay4 x0 x5 x6 x7 (ix2 p j)
      = ∑ k : Fin 512, Ideal.logistic ((∑ k' : Fin 512, x0 (ix2 p k') * x5 (ix2 k' k)) + x6 (ix2 0 k)) * x7 (ix2 k j) := by
  unfold k0_pay4 k0_pay2
  simp only [truncf_apply, logistic_apply, addf_apply, shapeCast_self, Cert.BroadcastTo.row_apply, matmulA_apply]

theorem pay5_eq (x8 : Vec Ideal S1x512 .f32) : k0_pay5 x8 = x8 := by
  unfold k0_pay5
  exact shapeCast_self _ _

/-- What the body stores, at `(p, n)`, from the two paths' values `a` and `b`, the second bias row `c` and the
    last five blocks: the fusion layer on the two halves, the output layer, and the row's log-softmax. -/
theorem pay1_apply (a : FVec Ideal S1024x512 .bf16) (b : FVec Ideal S1024x512 .f32) (c : FVec Ideal S1x512 .f32)
    (x9 x10 : Vec Ideal S512x512 .bf16) (x11 : Vec Ideal S1x512 .f32) (x12 : Vec Ideal S512x10 .bf16)
    (x13 : Vec Ideal S1x10 .f32) (p : Fin 1024) (n : Fin 10) :
    k0_pay1 a b c x9 x10 x11 x12 x13 (ix2 p n)
      = logSoftmax (fun n' => (∑ j : Fin 512,
          max (Ideal.logistic (((∑ k : Fin 512, a (ix2 p k) * x9 (ix2 k j))
              + ∑ k : Fin 512, Ideal.logistic (b (ix2 p k) + c (ix2 0 k)) * x10 (ix2 k j)) + x11 (ix2 0 j))) 0
            * x12 (ix2 j n')) + x13 (ix2 0 n')) n := by
  unfold k0_pay1 logSoftmax
  simp only [log_apply, subf_apply, Cert.BroadcastTo.col_apply, Cert.Keepdims.shapeCast_a_a1_apply]
  rw [rowSum_apply]
  simp only [exp_apply, subf_apply, Cert.BroadcastTo.col_apply, Cert.Keepdims.shapeCast_a_a1_apply]
  rw [rowMax_apply]
  simp only [truncf_apply, logistic_apply, addf_apply, maximumf_apply, broadcast_apply,
    shapeCast_self, Cert.BroadcastTo.row_apply, matmulA_apply, matmulB_apply, zero_word]

/-! ## The whole body on a block of rows -/

/-- The parameters as a grid point's blocks hold them: the weight blocks are whole matrices, the bias blocks one row
    each, and the fusion weights come as two blocks, one per half. -/
def blockWeights (x1 : Vec Ideal S512x512 .bf16) (x2 x3 x4 : Vec Ideal S1x512 .f32) (x5 : Vec Ideal S512x512 .bf16)
    (x6 : Vec Ideal S1x512 .f32) (x7 : Vec Ideal S512x512 .bf16) (x8 : Vec Ideal S1x512 .f32)
    (x9 x10 : Vec Ideal S512x512 .bf16) (x11 : Vec Ideal S1x512 .f32) (x12 : Vec Ideal S512x10 .bf16)
    (x13 : Vec Ideal S1x10 .f32) : Weights where
  wz k j := x1 (ix2 k j)
  bz j := x2 (ix2 0 j)
  mu j := x3 (ix2 0 j)
  sg j := x4 (ix2 0 j)
  w1 k j := x5 (ix2 k j)
  b1 j := x6 (ix2 0 j)
  w2 k j := x7 (ix2 k j)
  b2 j := x8 (ix2 0 j)
  wa k j := x9 (ix2 k j)
  wb k j := x10 (ix2 k j)
  bf j := x11 (ix2 0 j)
  wo k n := x12 (ix2 k n)
  bo n := x13 (ix2 0 n)

/-- THE BODY ON ONE BLOCK: entry `(p, n)` of what it stores is the network on row `p` of the input block. -/
theorem body_apply (x0 : Vec Ideal S1024x512 .f32) (x1 : Vec Ideal S512x512 .bf16) (x2 x3 x4 : Vec Ideal S1x512 .f32)
    (x5 : Vec Ideal S512x512 .bf16) (x6 : Vec Ideal S1x512 .f32) (x7 : Vec Ideal S512x512 .bf16)
    (x8 : Vec Ideal S1x512 .f32) (x9 x10 : Vec Ideal S512x512 .bf16) (x11 : Vec Ideal S1x512 .f32)
    (x12 : Vec Ideal S512x10 .bf16) (x13 : Vec Ideal S1x10 .f32) (p : Fin 1024) (n : Fin 10) :
    k0_pay1 (k0_pay3 x0 x1 x2 x3 x4) (k0_pay4 x0 x5 x6 x7) (k0_pay5 x8) x9 x10 x11 x12 x13 (ix2 p n)
      = rowOut (blockWeights x1 x2 x3 x4 x5 x6 x7 x8 x9 x10 x11 x12 x13) (fun k => x0 (ix2 p k)) n := by
  rw [pay1_apply]
  simp only [pay3_apply, pay4_apply, pay5_eq]
  rfl

end Cert.KernelIdeal.Row

end
-- ==== Proof.LibBroadcast.lean ====
/-
  Small layout operations read at an index: a vector as a row, a row or a vector broadcast down the rows, a vector as
  a column, a column broadcast across the columns, and a splat constant. Generic in the extents.
-/
import Idealize.ShloMosaic.PureOps.Ideal
import Idealize.ShloMosaic.Lib.Pipeline.Value
import Idealize.ShloMosaic.Lib.ValueIdx

noncomputable section

namespace Cert.Layout

open Idealize.ShloMosaic Idealize.ShloMosaic.ValueIdx

variable {α : Type} {m n : Nat}

/-- A vector `[n]` reshaped to a row `[1, n]`, read at `(0, k)`. -/
theorem row_of_vec_apply (x : (⟨1, ![n]⟩ : Shape).Idx → α) (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]; show k.val = 0 * n + k.val; omega)

/-- A vector `[n]` as a row `[1, n]` broadcast down `m` rows, read at `(p, k)`. -/
theorem rows_of_vec_apply (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (k : Fin n) :
    broadcastInDim ⟨2, ![m, n]⟩ ![0, 1] h2 (broadcastInDim ⟨2, ![1, n]⟩ ![1] h1 x) (ix2 p k) = x (ix1 k) := by
  have hk : k.val < n := k.isLt
  refine (broadcastInDim_apply ![0, 1] h2 _ (ix2 p k) (ix2 0 k) (fun a => ?_)).trans
    (broadcastInDim_apply ![1] h1 x (ix2 0 k) (ix1 k) (fun a => ?_))
  · match a with
    | ⟨0, _⟩ => show (0 : ℕ) = if (1 : ℕ) = 1 then 0 else _; rw [if_pos rfl]
    | ⟨1, _⟩ =>
      show k.val = if n = 1 then 0 else k.val
      split
      · omega
      · rfl
  · match a with
    | ⟨0, _⟩ =>
      show k.val = if n = 1 then 0 else k.val
      split
      · omega
      · rfl

/-- A per-row vector `[m]` as a column `[m, 1]`, read at `(e, 0)`. -/
theorem col_of_vec_apply (v : (⟨1, ![m]⟩ : Shape).Idx → α)
    (h : (⟨1, ![m]⟩ : Shape).BroadcastsInDim ⟨2, ![m, 1]⟩ ![0]) (e : Fin m) :
    broadcastInDim ⟨2, ![m, 1]⟩ ![0] h v (ix2 e 0) = v (ix1 e) := by
  have he : e.val < m := e.isLt
  refine broadcastInDim_apply ![0] h v (ix2 e 0) (ix1 e) (fun a => ?_)
  match a with
  | ⟨0, _⟩ =>
    show e.val = if m = 1 then 0 else e.val
    split
    · omega
    · rfl

/-- A column `[m, 1]` broadcast across `n` columns, read at `(e, c)`. -/
theorem cols_of_col_apply (w : (⟨2, ![m, 1]⟩ : Shape).Idx → α)
    (h : (⟨2, ![m, 1]⟩ : Shape).BroadcastsInDim ⟨2, ![m, n]⟩ ![0, 1]) (e : Fin m) (c : Fin n) :
    broadcastInDim ⟨2, ![m, n]⟩ ![0, 1] h w (ix2 e c) = w (ix2 e 0) := by
  have he : e.val < m := e.isLt
  refine broadcastInDim_apply ![0, 1] h w (ix2 e c) (ix2 e 0) (fun a => ?_)
  match a with
  | ⟨0, _⟩ =>
    show e.val = if m = 1 then 0 else e.val
    split
    · omega
    · rfl
  | ⟨1, _⟩ => show (0 : ℕ) = if (1 : ℕ) = 1 then 0 else _; rw [if_pos rfl]

/-- A splat of a float word, read anywhere, is the word read as an extended real. -/
theorem splat_apply {s : Shape} (hb : (⟨0, ![]⟩ : Shape).BroadcastsInDim s (![] : Fin 0 → Fin s.rank)) (w : BitVec 32) (i : s.Idx) :
    broadcastInDim s ![] hb (constant (F := Ideal) ⟨0, ![]⟩ .f32 w) i = Ideal.ofBits .f32 w := rfl

end Cert.Layout

end
-- ==== Proof.KernelBlocks.lean ====
/-
  From blocks to the array: the kernel's result array after the run, as one function of the argument arrays.

  The grid has 64 points. Point `t` reads rows `1024·t … 1024·t + 1023` of the input and every parameter whole, and
  writes back rows `1024·t … 1024·t + 1023` of the result. The parameter arrays the call reads are prepared on the host
  from the arguments: each bias vector reshaped to one row, each weight matrix changed to the narrower float format (the
  identity on extended reals), and the fusion weights sliced into their first 512 rows and their last 512 rows. So what
  a point's parameter blocks hold is what the argument arrays hold (`blockWeights_eq`), row `p` of its input block is
  row `1024·t + p` of the input, and by the body's reading (`body_apply`) what the point writes back is block `t` of
  the network of the specification applied to the argument arrays (`flushed_eq`). Row `r` of the result lies in the
  block of point `r / 1024`, so the blocks cover the array (`cover`) and the array ends at that function (`final`,
  `run`).
-/
import proofs.«150175_j74217034875579_1_alg».proof.Proof.Gen.KernelIdeal.Value
import proofs.«150175_j74217034875579_1_alg».proof.Proof.KernelRow
import proofs.«150175_j74217034875579_1_alg».proof.Proof.LibBroadcast
import Idealize.ShloMosaic.Lib.Pipeline.Value
import Idealize.ShloMosaic.Lib.StableHlo.Run

noncomputable section

open scoped BigOperators

namespace Cert.KernelIdeal.Blocks

open Cert.KernelIdeal Cert.KernelIdeal.Gen Cert.KernelIdeal.Value Cert.KernelIdeal.Row Cert.FuzzyNet
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The windows' index maps over the 64 grid points: the input rows and the result rows move with the point, one block
    of 1024 rows each; every parameter window stays on its one block. -/
theorem idx_facts : ∀ t : Fin cfg0.N,
    (win0_0.index t (0 : Fin 2) = t.val ∧ win0_0.index t (1 : Fin 2) = 0)
    ∧ (win0_14.index t (0 : Fin 2) = t.val ∧ win0_14.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

/-! ## The arrays the host prepares before the call, at an entry -/

/-- A weight matrix changed to the narrower float format: the same entries. -/
theorem V_v7_apply (c : Dev nD) (i : S512x512.Idx) :
    (V m c main_v7 : S512x512.Idx → EReal) i = (m ((c : Thread nD τ).loc main_arg1) : S512x512.Idx → EReal) i := by
  have e : (V m c main_v7 : S512x512.Idx → EReal)
      = truncf (F := Ideal) (s := S512x512) .bf16 (m ((c : Thread nD τ).loc main_arg1)) bitsLt_bf16_f32 := by
    dsimp only [Gen.V, Gen.hostOps0]; after_results
  rw [e]; rfl

theorem V_v8_apply (c : Dev nD) (i : S512x512.Idx) :
    (V m c main_v8 : S512x512.Idx → EReal) i = (m ((c : Thread nD τ).loc main_arg5) : S512x512.Idx → EReal) i := by
  have e : (V m c main_v8 : S512x512.Idx → EReal)
      = truncf (F := Ideal) (s := S512x512) .bf16 (m ((c : Thread nD τ).loc main_arg5)) bitsLt_bf16_f32 := by
    dsimp only [Gen.V, Gen.hostOps0]; after_results
  rw [e]; rfl

theorem V_v9_apply (c : Dev nD) (i : S512x512.Idx) :
    (V m c main_v9 : S512x512.Idx → EReal) i = (m ((c : Thread nD τ).loc main_arg7) : S512x512.Idx → EReal) i := by
  have e : (V m c main_v9 : S512x512.Idx → EReal)
      = truncf (F := Ideal) (s := S512x512) .bf16 (m ((c : Thread nD τ).loc main_arg7)) bitsLt_bf16_f32 := by
    dsimp only [Gen.V, Gen.hostOps0]; after_results
  rw [e]; rfl

theorem V_v14_apply (c : Dev nD) (i : S512x10.Idx) :
    (V m c main_v14 : S512x10.Idx → EReal) i = (m ((c : Thread nD τ).loc main_arg11) : S512x10.Idx → EReal) i := by
  have e : (V m c main_v14 : S512x10.Idx → EReal)
      = truncf (F := Ideal) (s := S512x10) .bf16 (m ((c : Thread nD τ).loc main_arg11)) bitsLt_bf16_f32 := by
    dsimp only [Gen.V, Gen.hostOps0]; after_results
  rw [e]; rfl

/-- The first half of the fusion weights: rows `0 … 511` of the `[1024, 512]` array. -/
theorem V_v11_apply (c : Dev nD) (k j : Fin 512) :
    (V m c main_v11 : S512x512.Idx → EReal) (ix2 k j) = (m ((c : Thread nD τ).loc main_arg9) : S1024x512.Idx → EReal) (ix2 (lo k) j) := by
  have e : (V m c main_v11 : S512x512.Idx → EReal)
      = truncf (F := Ideal) (s := S512x512) .bf16 (extractStridedSlice S512x512 ![0, 0] (m ((c : Thread nD τ).loc main_arg9) : S1024x512.Idx → EReal) slices_S1024x512_S512x512_0_0) bitsLt_bf16_f32 := by
    dsimp only [Gen.V, Gen.hostOps0]; after_results
  rw [e]
  show extractStridedSlice S512x512 ![0, 0] (m ((c : Thread nD τ).loc main_arg9) : S1024x512.Idx → EReal) slices_S1024x512_S512x512_0_0 (ix2 k j) = _
  refine extractStridedSlice_apply _ _ _ _ _ fun a => ?_
  match a with
  | ⟨0, _⟩ => show k.val = 0 + k.val; omega
  | ⟨1, _⟩ => show j.val = 0 + j.val; omega

/-- The second half: rows `512 … 1023`. -/
theorem V_v13_apply (c : Dev nD) (k j : Fin 512) :
    (V m c main_v13 : S512x512.Idx → EReal) (ix2 k j) = (m ((c : Thread nD τ).loc main_arg9) : S1024x512.Idx → EReal) (ix2 (hi k) j) := by
  have e : (V m c main_v13 : S512x512.Idx → EReal)
      = truncf (F := Ideal) (s := S512x512) .bf16 (extractStridedSlice S512x512 ![512, 0] (m ((c : Thread nD τ).loc main_arg9) : S1024x512.Idx → EReal) slices_S1024x512_S512x512_512_0) bitsLt_bf16_f32 := by
    dsimp only [Gen.V, Gen.hostOps0]; after_results
  rw [e]
  show extractStridedSlice S512x512 ![512, 0] (m ((c : Thread nD τ).loc main_arg9) : S1024x512.Idx → EReal) slices_S1024x512_S512x512_512_0 (ix2 k j) = _
  refine extractStridedSlice_apply _ _ _ _ _ fun a => ?_
  match a with
  | ⟨0, _⟩ => show 512 + k.val = 512 + k.val; rfl
  | ⟨1, _⟩ => show j.val = 0 + j.val; omega

/-- A bias vector reshaped to one row, at `(0, j)`. -/
theorem V_v0_apply (c : Dev nD) (j : Fin 512) :
    (V m c main_v0 : S1x512.Idx → EReal) (ix2 0 j) = (m ((c : Thread nD τ).loc main_arg2) : S512.Idx → EReal) (ix1 j) := by
  have e : (V m c main_v0 : S1x512.Idx → EReal)
      = shapeCast S1x512 (m ((c : Thread nD τ).loc main_arg2) : S512.Idx → EReal) shapeCasts_S512_S1x512 := by
    dsimp only [Gen.V, Gen.hostOps0]; after_results; rfl
  rw [e]; exact Cert.Layout.row_of_vec_apply _ _ j

theorem V_v1_apply (c : Dev nD) (j : Fin 512) :
    (V m c main_v1 : S1x512.Idx → EReal) (ix2 0 j) = (m ((c : Thread nD τ).loc main_arg3) : S512.Idx → EReal) (ix1 j) := by
  have e : (V m c main_v1 : S1x512.Idx → EReal)
      = shapeCast S1x512 (m ((c : Thread nD τ).loc main_arg3) : S512.Idx → EReal) shapeCasts_S512_S1x512 := by
    dsimp only [Gen.V, Gen.hostOps0]; after_results; rfl
  rw [e]; exact Cert.Layout.row_of_vec_apply _ _ j

theorem V_v2_apply (c : Dev nD) (j : Fin 512) :
    (V m c main_v2 : S1x512.Idx → EReal) (ix2 0 j) = (m ((c : Thread nD τ).loc main_arg4) : S512.Idx → EReal) (ix1 j) := by
  have e : (V m c main_v2 : S1x512.Idx → EReal)
      = shapeCast S1x512 (m ((c : Thread nD τ).loc main_arg4) : S512.Idx → EReal) shapeCasts_S512_S1x512 := by
    dsimp only [Gen.V, Gen.hostOps0]; after_results; rfl
  rw [e]; exact Cert.Layout.row_of_vec_apply _ _ j

theorem V_v3_apply (c : Dev nD) (j : Fin 512) :
    (V m c main_v3 : S1x512.Idx → EReal) (ix2 0 j) = (m ((c : Thread nD τ).loc main_arg6) : S512.Idx → EReal) (ix1 j) := by
  have e : (V m c main_v3 : S1x512.Idx → EReal)
      = shapeCast S1x512 (m ((c : Thread nD τ).loc main_arg6) : S512.Idx → EReal) shapeCasts_S512_S1x512 := by
    dsimp only [Gen.V, Gen.hostOps0]; after_results; rfl
  rw [e]; exact Cert.Layout.row_of_vec_apply _ _ j

theorem V_v4_apply (c : Dev nD) (j : Fin 512) :
    (V m c main_v4 : S1x512.Idx → EReal) (ix2 0 j) = (m ((c : Thread nD τ).loc main_arg8) : S512.Idx → EReal) (ix1 j) := by
  have e : (V m c main_v4 : S1x512.Idx → EReal)
      = shapeCast S1x512 (m ((c : Thread nD τ).loc main_arg8) : S512.Idx → EReal) shapeCasts_S512_S1x512 := by
    dsimp only [Gen.V, Gen.hostOps0]; after_results; rfl
  rw [e]; exact Cert.Layout.row_of_vec_apply _ _ j

theorem V_v5_apply (c : Dev nD) (j : Fin 512) :
    (V m c main_v5 : S1x512.Idx → EReal) (ix2 0 j) = (m ((c : Thread nD τ).loc main_arg10) : S512.Idx → EReal) (ix1 j) := by
  have e : (V m c main_v5 : S1x512.Idx → EReal)
      = shapeCast S1x512 (m ((c : Thread nD τ).loc main_arg10) : S512.Idx → EReal) shapeCasts_S512_S1x512 := by
    dsimp only [Gen.V, Gen.hostOps0]; after_results; rfl
  rw [e]; exact Cert.Layout.row_of_vec_apply _ _ j

theorem V_v6_apply (c : Dev nD) (j : Fin 10) :
    (V m c main_v6 : S1x10.Idx → EReal) (ix2 0 j) = (m ((c : Thread nD τ).loc main_arg12) : S10.Idx → EReal) (ix1 j) := by
  have e : (V m c main_v6 : S1x10.Idx → EReal)
      = shapeCast S1x10 (m ((c : Thread nD τ).loc main_arg12) : S10.Idx → EReal) shapeCasts_S10_S1x10 := by
    dsimp only [Gen.V, Gen.hostOps0]; after_results; rfl
  rw [e]; exact Cert.Layout.row_of_vec_apply _ _ j

/-! ## Each window's block, read as entries of an argument array -/

/-- The input window's block at point `t` is rows `1024·t … 1024·t + 1023` of the input. -/
theorem iblk0_apply (c : Dev nD) (t : Fin cfg0.N) (p : Fin 1024) (k : Fin 512) (r : Fin 65536) (hr : r.val = 1024 * t.val + p.val) :
    (iblk m c 0 t : Vec Ideal S1024x512 .f32) (ix2 p k) = ((m ((c : Thread nD τ).loc main_arg0)) : S65536x512.Idx → EReal) (ix2 r k) := by
  have e := (idx_facts t).1
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = r.val; rw [e.1, hr]; omega
  | ⟨1, _⟩ => show win0_0.index t (1 : Fin 2) * 512 + 1 * k.val = k.val; rw [e.2]; omega

theorem iblk1_apply (c : Dev nD) (t : Fin cfg0.N) (k : Fin 512) (j : Fin 512) :
    (iblk m c 1 t : Vec Ideal S512x512 .bf16) (ix2 k j) = ((m ((c : Thread nD τ).loc main_arg1)) : S512x512.Idx → EReal) (ix2 k j) := by
  have e := (idx_facts t).2.2.1
  show V m c main_v7 (((cfg0.win 1).blk t).view.emb (ix2 k j)) = _
  have he : ((cfg0.win 1).blk t).view.emb (ix2 k j) = ix2 k j := funext fun a => Fin.ext (by
    match a with
    | ⟨0, _⟩ => show win0_1.index t (0 : Fin 2) * 512 + 1 * k.val = k.val; rw [e.1]; omega
    | ⟨1, _⟩ => show win0_1.index t (1 : Fin 2) * 512 + 1 * j.val = j.val; rw [e.2]; omega)
  rw [he]; exact V_v7_apply m c (ix2 k j)

theorem iblk2_apply (c : Dev nD) (t : Fin cfg0.N) (j : Fin 512) :
    (iblk m c 2 t : Vec Ideal S1x512 .f32) (ix2 0 j) = ((m ((c : Thread nD τ).loc main_arg2)) : S512.Idx → EReal) (ix1 j) := by
  have e := (idx_facts t).2.2.2.1
  show V m c main_v0 (((cfg0.win 2).blk t).view.emb (ix2 0 j)) = _
  have he : ((cfg0.win 2).blk t).view.emb (ix2 (0 : Fin 1) j) = ix2 0 j := funext fun a => Fin.ext (by
    match a with
    | ⟨0, _⟩ => show win0_2.index t (0 : Fin 2) * 1 + 1 * 0 = 0; rw [e.1]
    | ⟨1, _⟩ => show win0_2.index t (1 : Fin 2) * 512 + 1 * j.val = j.val; rw [e.2]; omega)
  rw [he]; exact V_v0_apply m c j

theorem iblk3_apply (c : Dev nD) (t : Fin cfg0.N) (j : Fin 512) :
    (iblk m c 3 t : Vec Ideal S1x512 .f32) (ix2 0 j) = ((m ((c : Thread nD τ).loc main_arg3)) : S512.Idx → EReal) (ix1 j) := by
  have e := (idx_facts t).2.2.2.2.1
  show V m c main_v1 (((cfg0.win 3).blk t).view.emb (ix2 0 j)) = _
  have he : ((cfg0.win 3).blk t).view.emb (ix2 (0 : Fin 1) j) = ix2 0 j := funext fun a => Fin.ext (by
    match a with
    | ⟨0, _⟩ => show win0_3.index t (0 : Fin 2) * 1 + 1 * 0 = 0; rw [e.1]
    | ⟨1, _⟩ => show win0_3.index t (1 : Fin 2) * 512 + 1 * j.val = j.val; rw [e.2]; omega)
  rw [he]; exact V_v1_apply m c j

theorem iblk4_apply (c : Dev nD) (t : Fin cfg0.N) (j : Fin 512) :
    (iblk m c 4 t : Vec Ideal S1x512 .f32) (ix2 0 j) = ((m ((c : Thread nD τ).loc main_arg4)) : S512.Idx → EReal) (ix1 j) := by
  have e := (idx_facts t).2.2.2.2.2.1
  show V m c main_v2 (((cfg0.win 4).blk t).view.emb (ix2 0 j)) = _
  have he : ((cfg0.win 4).blk t).view.emb (ix2 (0 : Fin 1) j) = ix2 0 j := funext fun a => Fin.ext (by
    match a with
    | ⟨0, _⟩ => show win0_4.index t (0 : Fin 2) * 1 + 1 * 0 = 0; rw [e.1]
    | ⟨1, _⟩ => show win0_4.index t (1 : Fin 2) * 512 + 1 * j.val = j.val; rw [e.2]; omega)
  rw [he]; exact V_v2_apply m c j

theorem iblk5_apply (c : Dev nD) (t : Fin cfg0.N) (k : Fin 512) (j : Fin 512) :
    (iblk m c 5 t : Vec Ideal S512x512 .bf16) (ix2 k j) = ((m ((c : Thread nD τ).loc main_arg5)) : S512x512.Idx → EReal) (ix2 k j) := by
  have e := (idx_facts t).2.2.2.2.2.2.1
  show V m c main_v8 (((cfg0.win 5).blk t).view.emb (ix2 k j)) = _
  have he : ((cfg0.win 5).blk t).view.emb (ix2 k j) = ix2 k j := funext fun a => Fin.ext (by
    match a with
    | ⟨0, _⟩ => show win0_5.index t (0 : Fin 2) * 512 + 1 * k.val = k.val; rw [e.1]; omega
    | ⟨1, _⟩ => show win0_5.index t (1 : Fin 2) * 512 + 1 * j.val = j.val; rw [e.2]; omega)
  rw [he]; exact V_v8_apply m c (ix2 k j)

theorem iblk6_apply (c : Dev nD) (t : Fin cfg0.N) (j : Fin 512) :
    (iblk m c 6 t : Vec Ideal S1x512 .f32) (ix2 0 j) = ((m ((c : Thread nD τ).loc main_arg6)) : S512.Idx → EReal) (ix1 j) := by
  have e := (idx_facts t).2.2.2.2.2.2.2.1
  show V m c main_v3 (((cfg0.win 6).blk t).view.emb (ix2 0 j)) = _
  have he : ((cfg0.win 6).blk t).view.emb (ix2 (0 : Fin 1) j) = ix2 0 j := funext fun a => Fin.ext (by
    match a with
    | ⟨0, _⟩ => show win0_6.index t (0 : Fin 2) * 1 + 1 * 0 = 0; rw [e.1]
    | ⟨1, _⟩ => show win0_6.index t (1 : Fin 2) * 512 + 1 * j.val = j.val; rw [e.2]; omega)
  rw [he]; exact V_v3_apply m c j

theorem iblk7_apply (c : Dev nD) (t : Fin cfg0.N) (k : Fin 512) (j : Fin 512) :
    (iblk m c 7 t : Vec Ideal S512x512 .bf16) (ix2 k j) = ((m ((c : Thread nD τ).loc main_arg7)) : S512x512.Idx → EReal) (ix2 k j) := by
  have e := (idx_facts t).2.2.2.2.2.2.2.2.1
  show V m c main_v9 (((cfg0.win 7).blk t).view.emb (ix2 k j)) = _
  have he : ((cfg0.win 7).blk t).view.emb (ix2 k j) = ix2 k j := funext fun a => Fin.ext (by
    match a with
    | ⟨0, _⟩ => show win0_7.index t (0 : Fin 2) * 512 + 1 * k.val = k.val; rw [e.1]; omega
    | ⟨1, _⟩ => show win0_7.index t (1 : Fin 2) * 512 + 1 * j.val = j.val; rw [e.2]; omega)
  rw [he]; exact V_v9_apply m c (ix2 k j)

theorem iblk8_apply (c : Dev nD) (t : Fin cfg0.N) (j : Fin 512) :
    (iblk m c 8 t : Vec Ideal S1x512 .f32) (ix2 0 j) = ((m ((c : Thread nD τ).loc main_arg8)) : S512.Idx → EReal) (ix1 j) := by
  have e := (idx_facts t).2.2.2.2.2.2.2.2.2.1
  show V m c main_v4 (((cfg0.win 8).blk t).view.emb (ix2 0 j)) = _
  have he : ((cfg0.win 8).blk t).view.emb (ix2 (0 : Fin 1) j) = ix2 0 j := funext fun a => Fin.ext (by
    match a with
    | ⟨0, _⟩ => show win0_8.index t (0 : Fin 2) * 1 + 1 * 0 = 0; rw [e.1]
    | ⟨1, _⟩ => show win0_8.index t (1 : Fin 2) * 512 + 1 * j.val = j.val; rw [e.2]; omega)
  rw [he]; exact V_v4_apply m c j

theorem iblk9_apply (c : Dev nD) (t : Fin cfg0.N) (k j : Fin 512) :
    (iblk m c 9 t : Vec Ideal S512x512 .bf16) (ix2 k j) = ((m ((c : Thread nD τ).loc main_arg9)) : S1024x512.Idx → EReal) (ix2 (lo k) j) := by
  have e := (idx_facts t).2.2.2.2.2.2.2.2.2.2.1
  show V m c main_v11 (((cfg0.win 9).blk t).view.emb (ix2 k j)) = _
  have he : ((cfg0.win 9).blk t).view.emb (ix2 k j) = ix2 k j := funext fun a => Fin.ext (by
    match a with
    | ⟨0, _⟩ => show win0_9.index t (0 : Fin 2) * 512 + 1 * k.val = k.val; rw [e.1]; omega
    | ⟨1, _⟩ => show win0_9.index t (1 : Fin 2) * 512 + 1 * j.val = j.val; rw [e.2]; omega)
  rw [he]; exact V_v11_apply m c k j

theorem iblk10_apply (c : Dev nD) (t : Fin cfg0.N) (k j : Fin 512) :
    (iblk m c 10 t : Vec Ideal S512x512 .bf16) (ix2 k j) = ((m ((c : Thread nD τ).loc main_arg9)) : S1024x512.Idx → EReal) (ix2 (hi k) j) := by
  have e := (idx_facts t).2.2.2.2.2.2.2.2.2.2.2.1
  show V m c main_v13 (((cfg0.win 10).blk t).view.emb (ix2 k j)) = _
  have he : ((cfg0.win 10).blk t).view.emb (ix2 k j) = ix2 k j := funext fun a => Fin.ext (by
    match a with
    | ⟨0, _⟩ => show win0_10.index t (0 : Fin 2) * 512 + 1 * k.val = k.val; rw [e.1]; omega
    | ⟨1, _⟩ => show win0_10.index t (1 : Fin 2) * 512 + 1 * j.val = j.val; rw [e.2]; omega)
  rw [he]; exact V_v13_apply m c k j

theorem iblk11_apply (c : Dev nD) (t : Fin cfg0.N) (j : Fin 512) :
    (iblk m c 11 t : Vec Ideal S1x512 .f32) (ix2 0 j) = ((m ((c : Thread nD τ).loc main_arg10)) : S512.Idx → EReal) (ix1 j) := by
  have e := (idx_facts t).2.2.2.2.2.2.2.2.2.2.2.2.1
  show V m c main_v5 (((cfg0.win 11).blk t).view.emb (ix2 0 j)) = _
  have he : ((cfg0.win 11).blk t).view.emb (ix2 (0 : Fin 1) j) = ix2 0 j := funext fun a => Fin.ext (by
    match a with
    | ⟨0, _⟩ => show win0_11.index t (0 : Fin 2) * 1 + 1 * 0 = 0; rw [e.1]
    | ⟨1, _⟩ => show win0_11.index t (1 : Fin 2) * 512 + 1 * j.val = j.val; rw [e.2]; omega)
  rw [he]; exact V_v5_apply m c j

theorem iblk12_apply (c : Dev nD) (t : Fin cfg0.N) (k : Fin 512) (j : Fin 10) :
    (iblk m c 12 t : Vec Ideal S512x10 .bf16) (ix2 k j) = ((m ((c : Thread nD τ).loc main_arg11)) : S512x10.Idx → EReal) (ix2 k j) := by
  have e := (idx_facts t).2.2.2.2.2.2.2.2.2.2.2.2.2.1
  show V m c main_v14 (((cfg0.win 12).blk t).view.emb (ix2 k j)) = _
  have he : ((cfg0.win 12).blk t).view.emb (ix2 k j) = ix2 k j := funext fun a => Fin.ext (by
    match a with
    | ⟨0, _⟩ => show win0_12.index t (0 : Fin 2) * 512 + 1 * k.val = k.val; rw [e.1]; omega
    | ⟨1, _⟩ => show win0_12.index t (1 : Fin 2) * 10 + 1 * j.val = j.val; rw [e.2]; omega)
  rw [he]; exact V_v14_apply m c (ix2 k j)

theorem iblk13_apply (c : Dev nD) (t : Fin cfg0.N) (j : Fin 10) :
    (iblk m c 13 t : Vec Ideal S1x10 .f32) (ix2 0 j) = ((m ((c : Thread nD τ).loc main_arg12)) : S10.Idx → EReal) (ix1 j) := by
  have e := (idx_facts t).2.2.2.2.2.2.2.2.2.2.2.2.2.2
  show V m c main_v6 (((cfg0.win 13).blk t).view.emb (ix2 0 j)) = _
  have he : ((cfg0.win 13).blk t).view.emb (ix2 (0 : Fin 1) j) = ix2 0 j := funext fun a => Fin.ext (by
    match a with
    | ⟨0, _⟩ => show win0_13.index t (0 : Fin 2) * 1 + 1 * 0 = 0; rw [e.1]
    | ⟨1, _⟩ => show win0_13.index t (1 : Fin 2) * 10 + 1 * j.val = j.val; rw [e.2]; omega)
  rw [he]; exact V_v6_apply m c j

/-- So the parameters a point's blocks hold are the parameters the argument arrays hold, at every point. -/
theorem blockWeights_eq (c : Dev nD) (t : Fin cfg0.N) :
    blockWeights (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = argWeights (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  simp only [blockWeights, argWeights, Weights.mk.injEq]
  refine ⟨?_, ?_, ?_, ?_, ?_, ?_, ?_, ?_, ?_, ?_, ?_, ?_, ?_⟩
  · funext k j; exact iblk1_apply m c t k j
  · funext j; exact iblk2_apply m c t j
  · funext j; exact iblk3_apply m c t j
  · funext j; exact iblk4_apply m c t j
  · funext k j; exact iblk5_apply m c t k j
  · funext j; exact iblk6_apply m c t j
  · funext k j; exact iblk7_apply m c t k j
  · funext j; exact iblk8_apply m c t j
  · funext k j; exact iblk9_apply m c t k j
  · funext k j; exact iblk10_apply m c t k j
  · funext j; exact iblk11_apply m c t j
  · funext k j; exact iblk12_apply m c t k j
  · funext j; exact iblk13_apply m c t j

/-! ## What a point writes back, the cover, and the run -/

/-- The result array as one function of the launch memory: the network on every row of the input. -/
def result (c : Dev nD) : Buf (Elt Ideal) ((c : Thread nD τ).loc main_v15) :=
  net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- WHAT POINT `t` WRITES BACK is block `t` of `result`: rows `1024·t … 1024·t + 1023`. -/
theorem flushed_eq (c : Dev nD) (t : Fin cfg0.N) :
    (dats m 0 c).flushed 14 t = ((cfg0.win 14).blk t).view.read (Elt Ideal) (result m c) := by
  rw [Value.flushed14]
  unfold out0_14
  rw [View.canon_unit_zero hz]
  simp only [View.ld_unit_zero (S := S1024x512) hz, View.ld_unit_zero (S := S512x512) hz, View.ld_unit_zero (S := S1x512) hz,
    View.ld_unit_zero (S := S512x10) hz, View.ld_unit_zero (S := S1x10) hz]
  funext (y : S1024x10.Idx)
  obtain ⟨p, n, rfl⟩ : ∃ (p : Fin 1024) (n : Fin 10), y = ix2 p n := ⟨y 0, y 1, eq_ix2 y⟩
  have e := (idx_facts t).2.1
  have hN : cfg0.N = 64 := N_0
  have hr : 1024 * t.val + p.val < 65536 := by have := t.isLt; have := p.isLt; omega
  show k0_pay1 (k0_pay3 (iblk m c 0 t) (iblk m c 1 t) (iblk m c 2 t) (iblk m c 3 t) (iblk m c 4 t))
      (k0_pay4 (iblk m c 0 t) (iblk m c 5 t) (iblk m c 6 t) (iblk m c 7 t)) (k0_pay5 (iblk m c 8 t))
      (iblk m c 9 t) (iblk m c 10 t) (iblk m c 11 t) (iblk m c 12 t) (iblk m c 13 t) (ix2 p n)
    = result m c (((cfg0.win 14).blk t).view.emb (ix2 p n))
  have he : ((cfg0.win 14).blk t).view.emb (ix2 p n) = ix2 (⟨1024 * t.val + p.val, hr⟩ : Fin 65536) n :=
    funext fun a => Fin.ext (by
      match a with
      | ⟨0, _⟩ => show win0_14.index t (0 : Fin 2) * 1024 + 1 * p.val = 1024 * t.val + p.val; rw [e.1]; omega
      | ⟨1, _⟩ => show win0_14.index t (1 : Fin 2) * 10 + 1 * n.val = n.val; rw [e.2]; omega)
  rw [he]
  refine (body_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p n).trans ?_
  rw [blockWeights_eq m c t]
  unfold result
  rw [net_apply]
  refine congrArg (fun x => rowOut _ x n) (funext fun k => ?_)
  exact iblk0_apply m c t p k _ rfl

/-- An index of the result array is in point `t`'s block iff each coordinate is in the block's range on its axis. -/
theorem mem_blk (t : Fin cfg0.N) (i : S65536x10.Idx) :
    i ∈ ((cfg0.win 14).blk t).view.set ↔ ∀ a : Fin 2, win0_14.index t a * S1024x10.size a ≤ (i a).val ∧ (i a).val < win0_14.index t a * S1024x10.size a + S1024x10.size a := by
  show i ∈ ((View.whole main_v15).slice (win0_14.rect t)).set ↔ _
  rw [View.set_slice_whole, Rect.mem_set_unit]
  exact Iff.rfl

/-- Every row of the result lies in some point's block: row `r` in that of point `r / 1024`. -/
theorem cover (i : S65536x10.Idx) :
    ∃ t : Fin cfg0.N, (cfg0.win 14).flush t = true ∧ i ∈ ((cfg0.win 14).blk t).view.set := by
  have hN : cfg0.N = 64 := N_0
  have hi0 : (i 0).val < 65536 := (i 0).isLt
  have hi1 : (i 1).val < 10 := (i 1).isLt
  have ht : (i 0).val / 1024 < cfg0.N := by omega
  have e := (idx_facts ⟨(i 0).val / 1024, ht⟩).2.1
  refine ⟨⟨(i 0).val / 1024, ht⟩, flush0_14 _, ?_⟩
  rw [mem_blk]
  intro a
  match a with
  | ⟨0, _⟩ =>
    show win0_14.index ⟨(i 0).val / 1024, ht⟩ (0 : Fin 2) * 1024 ≤ (i 0).val ∧ (i 0).val < win0_14.index ⟨(i 0).val / 1024, ht⟩ (0 : Fin 2) * 1024 + 1024
    rw [e.1]; show (i 0).val / 1024 * 1024 ≤ (i 0).val ∧ (i 0).val < (i 0).val / 1024 * 1024 + 1024; omega
  | ⟨1, _⟩ =>
    show win0_14.index ⟨(i 0).val / 1024, ht⟩ (1 : Fin 2) * 10 ≤ (i 1).val ∧ (i 1).val < win0_14.index ⟨(i 0).val / 1024, ht⟩ (1 : Fin 2) * 10 + 10
    rw [e.2]; omega

/-- THE RESULT ARRAY after the run is `result`. -/
theorem final (c : Dev nD) : (dats m 0 c).arrAt 14 cfg0.N = result m c :=
  (dats m 0 c).arrAt_eq_of_cover 14 (result m c) (fun t _ => flushed_eq m c t) cover

/-- The kernel's run, read: the result array at the network of the argument arrays, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Value.run_blocks m ρ)

end Cert.KernelIdeal.Blocks

end
-- ==== Proof.LibCat.lean ====
/-
  A two-piece concatenation as a plain binary function of its pieces, so that a rewriting pass can reach the pieces (they
  sit, in the printed form, inside a list of shape-indexed pairs), with its reading at an index: along the concatenated
  axis, coordinates below the first piece's extent read the first piece, the others read the second piece at the
  coordinate less that extent. And the evaluation of a line of host operations at a buffer as one rewriting pass that
  also folds such concatenations.
-/
import Idealize.ShloMosaic.PureOps.Ideal
import Idealize.ShloMosaic.Lib.Pipeline.Value
import Idealize.ShloMosaic.Lib.ValueIdx
import Idealize.ShloMosaic.Lib.StableHlo.Run

noncomputable section

namespace Cert.Cat

open Idealize.ShloMosaic Idealize.ShloMosaic.ValueIdx

variable {α : Type}

/-- The concatenation of two pieces along axis `a`. -/
def cat2 (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem cat2_fold (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = cat2 t a s₁ s₂ h x₁ x₂ := rfl

/-- Two `[R, A]` and `[R, B]` pieces side by side: a column below `A` reads the first piece. -/
theorem cat2_cols_left {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin A) :
    cat2 ⟨2, ![R, A + B]⟩ 1 ⟨2, ![R, A]⟩ ⟨2, ![R, B]⟩ h x₁ x₂ (ix2 r (Fin.castAdd B k)) = x₁ (ix2 r k) :=
  concatenate_pair_apply_left 1 x₁ x₂ h (ix2 r (Fin.castAdd B k)) rfl (ix2 r k) (fun b => by
    match b with
    | ⟨0, _⟩ => rfl
    | ⟨1, _⟩ => rfl)

/-- … and a column `A + k` reads the second piece at column `k`. -/
theorem cat2_cols_right {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin B) :
    cat2 ⟨2, ![R, A + B]⟩ 1 ⟨2, ![R, A]⟩ ⟨2, ![R, B]⟩ h x₁ x₂ (ix2 r (Fin.natAdd A k)) = x₂ (ix2 r k) :=
  concatenate_pair_apply_right 1 x₁ x₂ h (ix2 r (Fin.natAdd A k)) rfl rfl (ix2 r k) (fun b hb => by
    match b with
    | ⟨0, _⟩ => rfl
    | ⟨1, _⟩ => exact absurd rfl hb) (by show k.val + A = A + k.val; omega)

end Cert.Cat

open Idealize.ShloMosaic.StableHlo in
/-- A line's fold at a buffer: the library's one-pass evaluation, alternated with folding two-piece concatenations into
    binary functions (whose pieces the next pass then reaches), until neither makes progress. -/
macro "eval_line" : tactic =>
  `(tactic| repeat (first | after_results_simp | simp only [Cert.Cat.cat2_fold]))

end
-- ==== Proof.RefNet.lean ====
/-
  The reference's result array is the network of the specification applied to the argument arrays.

  The reference is read one host operation at a time, each stage at an entry `(r, j)`: a dense layer as the sum over
  the contracted coordinate plus the bias vector's entry (the bias is laid as a row and repeated down the rows); the
  membership as `exp (-(z - mu)² / sigma²)`; the logistic function, which the host spells `1 / (1 + exp (-z))` with the
  word of `1.0`, as the logistic function itself; the product of the two paths' concatenation with the `[1024, 512]`
  fusion weights as the sum over the first 512 places, which read the membership path, plus the sum over the last 512,
  which read the sigmoid path; the clamp at zero; the row maximum as a fold from the word of `-∞`, and the maximum with
  that word once more as the same fold; the row sum of exponentials from the zero word; and the two subtractions.
-/
import proofs.«150175_j74217034875579_1_alg».proof.Proof.RefRead
import proofs.«150175_j74217034875579_1_alg».proof.Proof.Spec
import proofs.«150175_j74217034875579_1_alg».proof.Proof.LibCat
import proofs.«150175_j74217034875579_1_alg».proof.Proof.LibMatProd
import proofs.«150175_j74217034875579_1_alg».proof.Proof.LibBroadcast
import Idealize.ShloMosaic.Lib.ValueIdx
import Idealize.ShloMosaic.PureOps.Ideal.Laws

noncomputable section

open scoped BigOperators

namespace Cert.ReferenceIdeal.Net

open Cert.ReferenceIdeal Cert.ReferenceIdeal.Gen Cert.ReferenceIdeal.ReadP Cert.FuzzyNet
open Idealize.ShloMosaic Idealize.ShloMosaic.ValueIdx

/-! ## The host's operations at an entry -/

section Pointwise
variable {s : Shape} {φ : FTy}
theorem hexp_apply (a : FVec Ideal s φ) (i : s.Idx) : Host.exp a i = Ideal.exp (a i) := rfl
theorem hlog_apply (a : FVec Ideal s φ) (i : s.Idx) : Host.log a i = Ideal.log (a i) := rfl
theorem hneg_apply (a : FVec Ideal s φ) (i : s.Idx) : Host.negf a i = -(a i) := rfl
theorem hdiv_apply (a b : FVec Ideal s φ) (i : s.Idx) : Host.divf a b i = Ideal.div (a i) (b i) := rfl
end Pointwise

/-- The word of `1.0` is the extended real `1`. -/
theorem one_word : Ideal.ofBits .f32 0x3F800000#32 = 1 := by
  simp [Ideal.ofBits, Ideal.ieee, -EReal.coe_mul]; norm_num

/-- A bias vector laid as a row and repeated down the 65536 rows, at `(r, j)`. -/
theorem bias_rows (b : S512.Idx → EReal) (r : Fin 65536) (j : Fin 512) :
    broadcastInDim S65536x512 ![0, 1] bcast_S1x512_S65536x512_0_1 (broadcastInDim S1x512 ![1] bcast_S512_S1x512_1 b) (ix2 r j)
      = b (ix1 j) :=
  Cert.Layout.rows_of_vec_apply b _ _ r j

theorem bias_rows10 (b : S10.Idx → EReal) (r : Fin 65536) (n : Fin 10) :
    broadcastInDim S65536x10 ![0, 1] bcast_S1x10_S65536x10_0_1 (broadcastInDim S1x10 ![1] bcast_S10_S1x10_1 b) (ix2 r n)
      = b (ix1 n) :=
  Cert.Layout.rows_of_vec_apply b _ _ r n

/-- The three shapes of matrix product the reference takes, at an entry. -/
theorem dotA (l : S65536x512.Idx → EReal) (w : S512x512.Idx → EReal) (r : Fin 65536) (j : Fin 512) :
    Host.dotGeneral (F := Ideal) (φ₁ := .f32) (φ₂ := .f32) dot_S65536x512_S512x512_S65536x512_1_0_0_1_n_n none l w (ix2 r j)
      = ∑ k : Fin 512, l (ix2 r k) * w (ix2 k j) :=
  Cert.MatProd.dotGeneral_plain_apply none .single l w r j

theorem dotF (l : S65536x1024.Idx → EReal) (w : S1024x512.Idx → EReal) (r : Fin 65536) (j : Fin 512) :
    Host.dotGeneral (F := Ideal) (φ₁ := .f32) (φ₂ := .f32) dot_S65536x1024_S1024x512_S65536x512_1_0_0_1_n_n none l w (ix2 r j)
      = ∑ k : Fin 1024, l (ix2 r k) * w (ix2 k j) :=
  Cert.MatProd.dotGeneral_plain_apply none .single l w r j

theorem dotB (l : S65536x512.Idx → EReal) (w : S512x10.Idx → EReal) (r : Fin 65536) (n : Fin 10) :
    Host.dotGeneral (F := Ideal) (φ₁ := .f32) (φ₂ := .f32) dot_S65536x512_S512x10_S65536x10_1_0_0_1_n_n none l w (ix2 r n)
      = ∑ k : Fin 512, l (ix2 r k) * w (ix2 k n) :=
  Cert.MatProd.dotGeneral_plain_apply none .single l w r n

/-! ## The reference stage by stage, at an entry -/

variable (X : S65536x512.Idx → EReal) (A1 : S512x512.Idx → EReal) (A2 A3 A4 : S512.Idx → EReal)
  (A5 : S512x512.Idx → EReal) (A6 : S512.Idx → EReal) (A7 : S512x512.Idx → EReal) (A8 : S512.Idx → EReal)
  (A9 : S1024x512.Idx → EReal) (A10 : S512.Idx → EReal) (A11 : S512x10.Idx → EReal) (A12 : S10.Idx → EReal)

/-- The membership path: the host negates the square with its own negation. -/
theorem s_fuzz (r : Fin 65536) (j : Fin 512) :
    val_main_v13 (F := Ideal) X A1 A2 A3 A4 (ix2 r j) = fuzz (argWeights A1 A2 A3 A4 A5 A6 A7 A8 A9 A10 A11 A12) (fun k => X (ix2 r k)) j := by
  unfold val_main_v13 val_main_v12 val_main_v11 val_main_v10 val_main_v9 val_main_v8 val_main_v7 val_main_v6 val_main_v5 val_main_v4
    val_main_v3 val_main_v2 val_main_v1 val_main_v0
  simp only [hexp_apply, hdiv_apply, hneg_apply, mulf_apply, subf_apply, addf_apply, dotA]
  rw [bias_rows A2, bias_rows A3, bias_rows]
  rfl

/-- The sigmoid path's first layer: the host spells the logistic function as `1 / (1 + exp (-z))`. -/
theorem s_hid1 (r : Fin 65536) (j : Fin 512) :
    val_main_v23 (F := Ideal) X A5 A6 (ix2 r j) = hid1 (argWeights A1 A2 A3 A4 A5 A6 A7 A8 A9 A10 A11 A12) (fun k => X (ix2 r k)) j := by
  unfold val_main_v23 val_main_v22 val_main_cst_0 val_main_v21 val_main_v20 val_main_cst val_main_v19 val_main_v18 val_main_v17
    val_main_v16 val_main_v15 val_main_v14
  simp only [hexp_apply, hdiv_apply, hneg_apply, addf_apply, dotA]
  have h1 : broadcastInDim S65536x512 ![] bcast_S_S65536x512 (constant (F := Ideal) S_ .f32 0x3F800000#32) (ix2 r j) = 1 := one_word
  rw [h1, bias_rows A6]
  rfl

/-- Its second layer. -/
theorem s_hid2 (r : Fin 65536) (j : Fin 512) :
    val_main_v33 (F := Ideal) X A5 A6 A7 A8 (ix2 r j) = hid2 (argWeights A1 A2 A3 A4 A5 A6 A7 A8 A9 A10 A11 A12) (fun k => X (ix2 r k)) j := by
  unfold val_main_v33 val_main_v32 val_main_cst_2 val_main_v31 val_main_v30 val_main_cst_1 val_main_v29 val_main_v28 val_main_v27
    val_main_v26 val_main_v25 val_main_v24
  simp only [hexp_apply, hdiv_apply, hneg_apply, addf_apply, dotA, s_hid1 X A1 A2 A3 A4 A5 A6 A7 A8 A9 A10 A11 A12]
  have h1 : broadcastInDim S65536x512 ![] bcast_S_S65536x512 (constant (F := Ideal) S_ .f32 0x3F800000#32) (ix2 r j) = 1 := one_word
  rw [h1, bias_rows A8]
  rfl

/-- The concatenation of the two paths, on the first 512 columns and on the last 512. -/
theorem s_cat_lo (r : Fin 65536) (k : Fin 512) :
    val_main_v34 (F := Ideal) X A1 A2 A3 A4 A5 A6 A7 A8 (ix2 r (lo k)) = val_main_v13 (F := Ideal) X A1 A2 A3 A4 (ix2 r k) := by
  unfold val_main_v34
  exact Cert.Cat.cat2_cols_left (R := 65536) (A := 512) (B := 512) concatenates_S65536x512_S65536x512_S65536x1024_d1 _ _ r k

theorem s_cat_hi (r : Fin 65536) (k : Fin 512) :
    val_main_v34 (F := Ideal) X A1 A2 A3 A4 A5 A6 A7 A8 (ix2 r (hi k)) = val_main_v33 (F := Ideal) X A5 A6 A7 A8 (ix2 r k) := by
  unfold val_main_v34
  exact Cert.Cat.cat2_cols_right (R := 65536) (A := 512) (B := 512) concatenates_S65536x512_S65536x512_S65536x1024_d1 _ _ r k

/-- The fusion layer's product over the 1024 concatenated columns is the sum of the two halves' products: a sum over
    1024 places split at 512. -/
theorem s_fusepre (r : Fin 65536) (j : Fin 512) :
    val_main_v35 (F := Ideal) X A1 A2 A3 A4 A5 A6 A7 A8 A9 (ix2 r j)
      = lin (fuzz (argWeights A1 A2 A3 A4 A5 A6 A7 A8 A9 A10 A11 A12) (fun k => X (ix2 r k))) (argWeights A1 A2 A3 A4 A5 A6 A7 A8 A9 A10 A11 A12).wa j + lin (hid2 (argWeights A1 A2 A3 A4 A5 A6 A7 A8 A9 A10 A11 A12) (fun k => X (ix2 r k))) (argWeights A1 A2 A3 A4 A5 A6 A7 A8 A9 A10 A11 A12).wb j := by
  unfold val_main_v35
  rw [dotF, sum_halves]
  simp only [s_cat_lo X A1 A2 A3 A4 A5 A6 A7 A8, s_cat_hi X A1 A2 A3 A4 A5 A6 A7 A8, s_fuzz X A1 A2 A3 A4 A5 A6 A7 A8 A9 A10 A11 A12, s_hid2 X A1 A2 A3 A4 A5 A6 A7 A8 A9 A10 A11 A12]
  rfl

/-- The fusion layer. -/
theorem s_fused (r : Fin 65536) (j : Fin 512) :
    val_main_v45 (F := Ideal) X A1 A2 A3 A4 A5 A6 A7 A8 A9 A10 (ix2 r j) = fused (argWeights A1 A2 A3 A4 A5 A6 A7 A8 A9 A10 A11 A12) (fun k => X (ix2 r k)) j := by
  unfold val_main_v45 val_main_call0_v0 val_main_call0_cst val_main_v44 val_main_v43 val_main_cst_4 val_main_v42 val_main_v41
    val_main_cst_3 val_main_v40 val_main_v39 val_main_v38 val_main_v37 val_main_v36
  simp only [maximumf_apply, hexp_apply, hdiv_apply, hneg_apply, addf_apply, s_fusepre X A1 A2 A3 A4 A5 A6 A7 A8 A9 A10 A11 A12]
  have h1 : broadcastInDim S65536x512 ![] bcast_S_S65536x512 (constant (F := Ideal) S_ .f32 0x3F800000#32) (ix2 r j) = 1 := one_word
  have h0 : broadcastInDim S65536x512 ![] bcast_S_S65536x512 (constant (F := Ideal) S_ .f32 0x00000000#32) (ix2 r j) = 0 := Ideal.ofBits_zero_f32
  rw [h1, h0, bias_rows A10]
  rfl

/-- The ten logits. -/
theorem s_logit (r : Fin 65536) (n : Fin 10) :
    val_main_v49 (F := Ideal) X A1 A2 A3 A4 A5 A6 A7 A8 A9 A10 A11 A12 (ix2 r n) = logit (argWeights A1 A2 A3 A4 A5 A6 A7 A8 A9 A10 A11 A12) (fun k => X (ix2 r k)) n := by
  unfold val_main_v49 val_main_v48 val_main_v47 val_main_v46
  simp only [addf_apply, dotB, s_fused X A1 A2 A3 A4 A5 A6 A7 A8 A9 A10 A11 A12]
  rw [bias_rows10 A12]
  rfl

/-- Row `r` with the class coordinate `k` put back is `(r, k)`. -/
theorem lift_row (h : S65536x10.Reduces [1] S65536) (r : Fin 65536) (k : Fin (S65536x10.size 1)) :
    h.lift (ix1 r) k = ix2 r (⟨k.val, k.isLt⟩ : Fin 10) := by
  funext c; apply Fin.ext
  fin_cases c <;> rfl

/-- The row maximum: a reduce from the word of `-∞`, then the maximum with that word once more, which changes
    nothing. -/
theorem s_max (r : Fin 65536) :
    val_main_call1_v2 (F := Ideal) X A1 A2 A3 A4 A5 A6 A7 A8 A9 A10 A11 A12 (ix1 r) = rowMax (logit (argWeights A1 A2 A3 A4 A5 A6 A7 A8 A9 A10 A11 A12) (fun k => X (ix2 r k))) := by
  have h : S65536x10.Reduces [1] S65536 := by decide
  have hred : val_main_call1_v0 (F := Ideal) X A1 A2 A3 A4 A5 A6 A7 A8 A9 A10 A11 A12 (ix1 r) = rowMax (logit (argWeights A1 A2 A3 A4 A5 A6 A7 A8 A9 A10 A11 A12) (fun k => X (ix2 r k))) := by
    unfold val_main_call1_v0 val_main_call1_cst
    refine (Host.reduce_eq_fold_single FloatOps.maximumf _ _ reducesTo_S65536x10_S65536_d1 h h_S_ (ix1 r)).trans ?_
    have hf : (val_main_v49 (F := Ideal) X A1 A2 A3 A4 A5 A6 A7 A8 A9 A10 A11 A12 ∘ h.lift (ix1 r)) = logit (argWeights A1 A2 A3 A4 A5 A6 A7 A8 A9 A10 A11 A12) (fun k => X (ix2 r k)) :=
      funext fun k => (congrArg _ (lift_row h r k)).trans (s_logit X A1 A2 A3 A4 A5 A6 A7 A8 A9 A10 A11 A12 r ⟨k.val, k.isLt⟩)
    exact congrArg (fun f => Finset.fold max (Ideal.ofBits .f32 0xFF800000#32) f (Finset.univ : Finset (Fin 10))) hf
  unfold val_main_call1_v2 val_main_call1_v1 val_main_call1_cst_0
  rw [maximumf_apply, Cert.Layout.splat_apply, hred]
  exact max_floor_rowMax _

/-- The shifted logits. -/
theorem s_shift (r : Fin 65536) (n : Fin 10) :
    val_main_call1_v5 (F := Ideal) X A1 A2 A3 A4 A5 A6 A7 A8 A9 A10 A11 A12 (ix2 r n)
      = logit (argWeights A1 A2 A3 A4 A5 A6 A7 A8 A9 A10 A11 A12) (fun k => X (ix2 r k)) n - rowMax (logit (argWeights A1 A2 A3 A4 A5 A6 A7 A8 A9 A10 A11 A12) (fun k => X (ix2 r k))) := by
  unfold val_main_call1_v5 val_main_call1_v4 val_main_call1_v3
  rw [subf_apply, Cert.Layout.cols_of_col_apply, Cert.Layout.col_of_vec_apply, s_logit, s_max]

/-- The sum of their exponentials, from the zero word. -/
theorem s_sum (r : Fin 65536) :
    val_main_call1_v7 (F := Ideal) X A1 A2 A3 A4 A5 A6 A7 A8 A9 A10 A11 A12 (ix1 r)
      = ∑ k : Fin 10, Ideal.exp (logit (argWeights A1 A2 A3 A4 A5 A6 A7 A8 A9 A10 A11 A12) (fun k => X (ix2 r k)) k - rowMax (logit (argWeights A1 A2 A3 A4 A5 A6 A7 A8 A9 A10 A11 A12) (fun k => X (ix2 r k)))) := by
  rw [val_main_call1_v7_apply]
  have hz : (val_main_call1_cst_1 (F := Ideal)) (Shape.Idx.first h_S_) = 0 := Ideal.ofBits_zero_f32
  rw [hz, zero_add]
  refine Finset.sum_congr rfl fun k _ => ?_
  have hi : idx_main_call1_v7 (ix1 r) k = ix2 r k := funext fun a => by match a with | ⟨0, _⟩ => rfl | ⟨1, _⟩ => rfl
  rw [hi]
  unfold val_main_call1_v6
  rw [hexp_apply, s_shift]

/-- THE REFERENCE'S RESULT at `(r, n)` is the network on row `r` of the input, at class `n`. -/
theorem s_out (r : Fin 65536) (n : Fin 10) :
    val_main_v50 (F := Ideal) X A1 A2 A3 A4 A5 A6 A7 A8 A9 A10 A11 A12 (ix2 r n) = rowOut (argWeights A1 A2 A3 A4 A5 A6 A7 A8 A9 A10 A11 A12) (fun k => X (ix2 r k)) n := by
  unfold val_main_v50 val_main_call1_v10 val_main_call1_v9 val_main_call1_v8
  rw [subf_apply, Cert.Layout.cols_of_col_apply, hlog_apply, Cert.Layout.col_of_vec_apply, s_shift, s_sum]
  rfl

/-- So the reference's result array is the specification's function of the argument arrays. -/
theorem ref_is_net : val_main_v50 (F := Ideal) X A1 A2 A3 A4 A5 A6 A7 A8 A9 A10 A11 A12 = net X A1 A2 A3 A4 A5 A6 A7 A8 A9 A10 A11 A12 := by
  funext i
  obtain ⟨r, n, rfl⟩ : ∃ (r : Fin 65536) (n : Fin 10), i = ix2 r n := ⟨i 0, i 1, eq_ix2 i⟩
  rw [s_out, net_apply]

end Cert.ReferenceIdeal.Net

end
-- ==== Proof.lean ====
/-
  The kernel and its reference compute one function of the thirteen argument arrays.

  The program is a small classifier over a batch of 65536 rows of 512 features: a membership path (a dense layer, then
  per column the Gaussian membership `exp (-(z - mu)² / sigma²)`), a sigmoid path (two dense layers, each followed by
  the logistic function), a fusion layer over the two paths side by side (a dense layer, the logistic function, a clamp
  at zero), an output layer to 10 classes, and the row's log-softmax. `Cert.FuzzyNet.net` is that function, stated row
  by row over the extended reals.

  The kernel streams the batch through a grid of 64 blocks of 1024 rows with every parameter resident. It takes its
  matrix products on operands changed to a narrower float format (the identity on extended reals), negates a square as
  `0 - d²`, uses the logistic function as one operation, and, instead of laying the two paths side by side, multiplies
  each by its half of the fusion weights and adds the two products. The reference multiplies the concatenation by the
  whole `[1024, 512]` matrix, spells the logistic function as `1 / (1 + exp (-z))`, and takes the row maximum with
  `-∞` once more than the kernel. Over the extended reals these are the same: the logistic function IS that quotient, a
  sum over 1024 places is the sum over the first 512 plus the sum over the last 512 (addition of extended reals is
  commutative and associative, so no finiteness is asked), `0 - y = -y`, and a maximum started from a value is at least
  that value. So the result array of either program ends at `net` of the argument arrays: the kernel's by reading what
  each grid point writes back and covering the array with the 64 blocks, the reference's by reading its host operations
  one at a time. The precondition is not used for the value; the three frames are the programs' runs with the result
  dropped, and the idealization rewrote nothing, so it has nothing to preserve.
-/
import proofs.«150175_j74217034875579_1_alg».proof.Defs
import proofs.«150175_j74217034875579_1_alg».proof.Proof.Gen.Kernel
import proofs.«150175_j74217034875579_1_alg».proof.Proof.Gen.Kernel.Skeleton
import proofs.«150175_j74217034875579_1_alg».proof.Proof.Gen.Kernel.Launch
import proofs.«150175_j74217034875579_1_alg».proof.Proof.Gen.Kernel.Points
import proofs.«150175_j74217034875579_1_alg».proof.Proof.Gen.Kernel.Frame
import proofs.«150175_j74217034875579_1_alg».proof.Proof.Gen.KernelIdeal
import proofs.«150175_j74217034875579_1_alg».proof.Proof.Gen.KernelIdeal.Skeleton
import proofs.«150175_j74217034875579_1_alg».proof.Proof.Gen.KernelIdeal.Launch
import proofs.«150175_j74217034875579_1_alg».proof.Proof.Gen.KernelIdeal.Points
import proofs.«150175_j74217034875579_1_alg».proof.Proof.Gen.KernelIdeal.Frame
import proofs.«150175_j74217034875579_1_alg».proof.Proof.Gen.ReferenceIdeal
import proofs.«150175_j74217034875579_1_alg».proof.Proof.Gen.Pre_finite_inputs
import proofs.«150175_j74217034875579_1_alg».proof.Proof.Gen.KernelIdeal.Value
import proofs.«150175_j74217034875579_1_alg».proof.Proof.KernelBlocks
import proofs.«150175_j74217034875579_1_alg».proof.Proof.RefNet
import Idealize.ShloMosaic.Adequacy
import Idealize.ShloMosaic.Init

noncomputable section

namespace Cert.Proof

open Idealize.ShloMosaic Idealize.SL.Sem Cert.Kernel

/-- The word-level kernel runs, faults nowhere, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Over the extended reals, from memories that agree on the arguments, the kernel's result array and the reference's
    both end at the network of the argument arrays. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12⟩ := hagree c
  rw [Cert.ReferenceIdeal.ReadP.val_main_v50_eq, Cert.ReferenceIdeal.Net.ref_is_net, h0, h1, h2, h3, h4, h5, h6, h7, h8, h9, h10, h11, h12]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
